-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 37
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S100000, .f32⟩
  | .hbm, ⟨25, _⟩ => ⟨S640000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S128x128, .bf16⟩
  | .hbm, ⟨35, _⟩ => ⟨S1x128, .f32⟩
  | .hbm, ⟨36, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S100000, .f32⟩
  | .hbm, ⟨25, _⟩ => ⟨S640000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockReads.lean ====
/-
  The kernel's blocks, read at an entry.

  The grid has twenty points. At point `t` the feature window's block is rows `5000·t … 5000·t + 4999` of the aggregated
  features, the weight and bias windows' blocks are their whole arrays, and the result window's block is rows
  `5000·t … 5000·t + 4999` of the result. Each lemma below reads one block at an entry given by coordinates: a block's
  element sits in its array, on each axis, at the block index times the block's size plus its own coordinate.
-/
import proofs.«123157_j19439021981794_1_alg».proof.Proof.Gen.KernelIdeal.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The printed index maps over the twenty points: the feature and result windows move down one block of rows per
    point, the weight and bias windows stay at their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has twenty points. -/
theorem points (t : Fin cfg0.N) : t.val < 20 := t.isLt

/-! ## The input blocks, read where the output block says

Each is stated for any contents `A` of the window's array, so that it never looks inside the array it is later used at. -/

/-- Row `p` of the feature window's block at point `t` is row `5000·t + p` of its array. -/
theorem rows_read (A : S100000x128.Idx → EReal) (t : Fin cfg0.N) (p : Fin 5000) (k : Fin 128)
    (hrow : t.val * 5000 + p.val < 100000) :
    ((cfg0.win 0).blk t).view.read (Elt Ideal) A (ix2 p k) = A (ix2 (⟨t.val * 5000 + p.val, hrow⟩ : Fin 100000) k) := by
  obtain ⟨e0, e1, -⟩ := index_facts t
  show A (((cfg0.win 0).blk t).view.emb (ix2 p k)) = A _
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight window's block at every point is its whole array. -/
theorem weights_read (A : S128x128.Idx → EReal) (t : Fin cfg0.N) (k q : Fin 128) :
    ((cfg0.win 1).blk t).view.read (Elt Ideal) A (ix2 k q) = A (ix2 k q) := by
  obtain ⟨-, -, e0, e1, -⟩ := index_facts t
  show A (((cfg0.win 1).blk t).view.emb (ix2 k q)) = A _
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's block at every point is its whole one-row array. -/
theorem bias_read (A : S1x128.Idx → EReal) (t : Fin cfg0.N) (q : Fin 128) :
    ((cfg0.win 2).blk t).view.read (Elt Ideal) A (ix2 (0 : Fin 1) q) = A (ix2 (0 : Fin 1) q) := by
  obtain ⟨-, -, -, -, e0, e1, -⟩ := index_facts t
  show A (((cfg0.win 2).blk t).view.emb (ix2 (0 : Fin 1) q)) = A _
  refine congrArg A (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-! ## The result window's block -/

/-- The result window is never cut at the array's end: what a write-back of a staging buffer holding `X` writes, at
    `(p, q)`, is `X` at `(p, q)`. -/
theorem written_entry (t : Fin cfg0.N) (X : S5000x128.Idx → EReal) (p : Fin 5000) (q : Fin 128) :
    (cfg0.win 3).cut (grid0.coords t) X (ix2 p q) = X (ix2 p q) := rfl

/-- Block `t` of a function `G` of the result array's index, at `(p, q)`, is `G` at row `5000·t + p`, column `q`. -/
theorem result_read (t : Fin cfg0.N) (G : S100000x128.Idx → EReal) (p : Fin 5000) (q : Fin 128)
    (hrow : t.val * 5000 + p.val < 100000) :
    ((cfg0.win 3).blk t).view.read (Elt Ideal) G (ix2 p q) = G (ix2 (⟨t.val * 5000 + p.val, hrow⟩ : Fin 100000) q) := by
  obtain ⟨-, -, -, -, -, -, e0, e1⟩ := index_facts t
  show G (((cfg0.win 3).blk t).view.emb (ix2 p q)) = G _
  refine congrArg G (funext fun a => Fin.ext ?_)
  match a with
  | ⟨0, _⟩ => show win0_3.index t (0 : Fin 2) * 5000 + 1 * p.val = t.val * 5000 + p.val; omega
  | ⟨1, _⟩ => show win0_3.index t (1 : Fin 2) * 128 + 1 * q.val = q.val; omega

end Cert.KernelIdeal.Whole

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.DenseRelu.lean ====
/-
  One dense layer followed by ReLU, on the extended reals.

  A unit of the layer sends an input row `r : Fin 128 → EReal`, a weight row `w : Fin 128 → EReal` and a bias `β` to
  `max ((∑ k, r k · w k) + β) 0`. The layer sends the aggregated features `h` (`[100000, 128]`), the weights `W`
  (`[out, in] = [128, 128]`) and the bias `b` (`[128]`) to the matrix whose entry `(p, c)` is the unit of row `p` of `h`,
  row `c` of `W` and `b[c]`: `relu (h · Wᵀ + b)`. Each output row depends on the same row of `h` only, so the layer
  applied to a block of rows is that block of the layer applied to the whole matrix: that is what lets a kernel that walks
  the rows block by block agree with a reference that multiplies the whole matrix at once. The sum over `k` is the same
  plain sum on both sides, in the same order; no law of the extended reals beyond reading both sides at an entry is needed,
  and no finiteness.
-/
import Idealize.ShloMosaic.Lib.ValueIdx
import Idealize.ShloMosaic.PureOps.Ideal.Laws

noncomputable section

namespace Cert.DenseRelu

open Idealize.ShloMosaic Idealize.ShloMosaic.ValueIdx

/-- One unit: `max (r · w + β) 0`. The zero is the float word `0x00000000`, kept as a word: both programs clamp at the
    same word. -/
def unit (r w : Fin 128 → EReal) (β : EReal) : EReal :=
  max ((∑ k : Fin 128, r k * w k) + β) (Ideal.ofBits .f32 0x00000000#32)

/-- The layer on the whole matrix `h`: entry `(p, c)` is the unit of row `p` of `h`, row `c` of `W` and `b[c]`. -/
def layer (h : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => unit (fun k => h (ix2 (⟨(i 0).val, (i 0).isLt⟩ : Fin 100000) k))
    (fun k => W (ix2 (⟨(i 1).val, (i 1).isLt⟩ : Fin 128) k)) (b (ix1 (⟨(i 1).val, (i 1).isLt⟩ : Fin 128)))

/-- The layer read at the entry `(p, c)`. -/
theorem layer_apply (h : (⟨2, ![100000, 128]⟩ : Shape).Idx → EReal) (W : (⟨2, ![128, 128]⟩ : Shape).Idx → EReal)
    (b : (⟨1, ![128]⟩ : Shape).Idx → EReal) (p : Fin 100000) (c : Fin 128) :
    layer h W b (ix2 p c) = unit (fun k => h (ix2 p k)) (fun k => W (ix2 c k)) (b (ix1 c)) := rfl

end Cert.DenseRelu

end
-- ==== Proof.BlockValue.lean ====
/-
  What the kernel body stores, read at an entry.

  The body loads a block of 5000 rows of the aggregated features, the whole transposed weight matrix and the one-row bias,
  multiplies the rows by the weights into a zero accumulator, adds the bias row to every row and clamps at zero. Its
  changes of float format are the identity on the extended reals and its shape casts are to the same shape, so entry
  `(p, q)` of the stored block is the layer's unit of row `p` of the loaded rows, column `q` of the loaded weights and
  entry `q` of the loaded bias row.
-/
import proofs.«123157_j19439021981794_1_alg».proof.Proof.Gen.KernelIdeal.Skeleton
import proofs.«123157_j19439021981794_1_alg».proof.Proof.LibPlainProduct
import proofs.«123157_j19439021981794_1_alg».proof.Proof.DenseRelu
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product of the body: a `[5000, 128]` block of rows times the `[128, 128]` transposed weights, into the zero
    accumulator, at entry `(p, q)` is the plain sum over `k` of `l[p, k] · r[k, q]`. -/
theorem product_entry (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) :=
  Cert.PlainProduct.matmul_zero_entry (M := 5000) (K := 128) (N := 128) dot_S5000x128_S128x128_S5000x128_1_0_0_1_n_n rfl rfl
    (fun j q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j q => dot_S5000x128_S128x128_S5000x128_1_0_0_1_n_n.lhsIdx_val_of_single rfl j q)
    (fun j q => dot_S5000x128_S128x128_S5000x128_1_0_0_1_n_n.rhsIdx_val_of_single rfl j q)
    (fun j q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    l r p q

/-- Entry `(p, q)` of what the body stores is the unit of row `p` of the rows, column `q` of the weights, and the bias at `q`. -/
theorem stored_entry (x0 : Vec Ideal S5000x128 .f32) (x1 : Vec Ideal S128x128 .bf16) (x2 : Vec Ideal S1x128 .f32)
    (p : Fin 5000) (q : Fin 128) :
    k0_pay1 (F := Ideal) x0 x1 x2 (ix2 p q)
      = Cert.DenseRelu.unit (fun k => x0 (ix2 p k)) (fun k => x1 (ix2 k q)) (x2 (ix2 (0 : Fin 1) q)) := by
  unfold k0_pay1 Cert.DenseRelu.unit
  simp only [shapeCast_self]
  show max (FloatOps.matmul dot_S5000x128_S128x128_S5000x128_1_0_0_1_n_n none (truncf .bf16 x0 bitsLt_bf16_f32) x1
        (constant (F := Ideal) S5000x128 .f32 0x00000000#32) (ix2 p q)
      + broadcastTo S5000x128 x2 broadcasts_S1x128_S5000x128 (ix2 p q)) (Ideal.ofBits .f32 0x00000000#32) = _
  refine congrArg₂ max (congrArg₂ (· + ·) ?_ ?_) rfl
  · exact product_entry (truncf .bf16 x0 bitsLt_bf16_f32) x1 p q
  · exact broadcastTo_1b_ab_apply x2 broadcasts_S1x128_S5000x128 p q

end Cert.KernelIdeal.Body

end
-- ==== Proof.RegionEntry.lean ====
/-
  What the kernel's three input arrays hold when its region is entered.

  The host lines before the region compute, from the arguments, the three arrays the kernel reads: the aggregated features
  (gather the source rows, add them up per destination node, divide by the clamped in-degree), the weights transposed (and
  then rounded to bfloat16, which on the extended reals changes nothing), and the bias reshaped to one row. The reference
  computes the aggregated features by the very same host lines, so they are carried here as one unopened function of the
  node features and the edge list — the reference's own stage for that value — and only the transposed weights and the bias
  row are read at an entry.
-/
import proofs.«123157_j19439021981794_1_alg».proof.Proof.Gen.KernelIdeal.Frame
import proofs.«123157_j19439021981794_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The aggregated features the region finds are the reference's aggregated features of the same node features and edge
    list: the two programs apply the same host lines, one after the other, to the same two arguments. -/
def features (c : Dev nD) : S100000x128.Idx → EReal :=
  Cert.ReferenceIdeal.Read.val_main_v22 (F := Ideal) (m ((c : Thread nD τ).loc main_arg0)) (m ((c : Thread nD τ).loc main_arg1))

set_option maxHeartbeats 2000000 in
theorem features_eq (c : Dev nD) : (V m c main_v22 : S100000x128.Idx → EReal) = features m c := by
  unfold features
  dsimp only [Gen.V, Gen.hostOps0]
  after_results_simp <;> rfl

/-- The weights the region finds, at `(k, q)`, are the weight argument at `(q, k)`: transposed, and the rounding to
    bfloat16 is the identity on the extended reals. -/
theorem weights_entry (c : Dev nD) (k q : Fin 128) :
    (V m c main_v24 : S128x128.Idx → EReal) (ix2 k q) = (m ((c : Thread nD τ).loc main_arg2) : S128x128.Idx → EReal) (ix2 q k) := by
  have e : (V m c main_v24 : S128x128.Idx → EReal)
      = transpose S128x128 [1, 0] (m ((c : Thread nD τ).loc main_arg2)) transposes_S128x128_S128x128_1_0 := by
    dsimp only [Gen.V, Gen.hostOps0]
    after_results
    rfl
  rw [e]
  exact transpose_ix2_apply _ transposes_S128x128_S128x128_1_0 k q

/-- The bias row the region finds, at `(0, q)`, is the bias argument at `q`. -/
theorem bias_entry (c : Dev nD) (q : Fin 128) :
    (V m c main_v25 : S1x128.Idx → EReal) (ix2 (0 : Fin 1) q) = (m ((c : Thread nD τ).loc main_arg3) : S128.Idx → EReal) (ix1 q) := by
  have e : (V m c main_v25 : S1x128.Idx → EReal)
      = shapeCast S1x128 (m ((c : Thread nD τ).loc main_arg3)) shapeCasts_S128_S1x128 := by
    dsimp only [Gen.V, Gen.hostOps0]
    after_results
    rfl
  rw [e]
  exact shapeCast_a_1a_apply _ shapeCasts_S128_S1x128 (0 : Fin 1) q

end Cert.KernelIdeal.Entry

end
-- ==== Proof.KernelArray.lean ====
/-
  From the blocks the kernel writes back to the whole result array.

  The grid has twenty points; point `t` reads rows `5000·t … 5000·t + 4999` of the aggregated features `h`, the whole
  transposed weight matrix and the bias row, and writes back rows `5000·t … 5000·t + 4999` of the result. Since an output
  row of the dense layer depends on the same input row only, what point `t` writes back is block `t` of the layer of the
  whole matrix `h`; the twenty blocks tile the `100000` rows (row `r` is in block `r / 5000`), so after the run the result
  array is the layer of `h`, the weights and the bias as the region finds them.
-/
import proofs.«123157_j19439021981794_1_alg».proof.Proof.BlockReads
import proofs.«123157_j19439021981794_1_alg».proof.Proof.BlockValue
import proofs.«123157_j19439021981794_1_alg».proof.Proof.RegionEntry

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What each point writes back, and the whole array -/

/-- The result array as one function: the dense layer of the aggregated features the region finds, the weight argument
    and the bias argument. -/
abbrev result (c : Dev nD) : S100000x128.Idx → EReal :=
  Cert.DenseRelu.layer (V m c main_v22) (m ((c : Thread nD τ).loc main_arg2)) (m ((c : Thread nD τ).loc main_arg3))

/-- What point `t` writes back is the body's stored value of the three blocks at `t`: the one store fills the whole
    staging buffer, and each load reads its whole block. -/
theorem flushed_stored (c : Dev nD) (t : Fin cfg0.N) :
    (dats m 0 c).flushed 3 t
      = (cfg0.win 3).cut (grid0.coords t) (k0_pay1 (F := Ideal) (iblk m c 0 t) (iblk m c 1 t) (iblk m c 2 t)) := by
  rw [Value.flushed3]
  unfold out0_3
  rw [View.canon_unit_zero origin]
  simp only [View.ld_unit_zero (S := S5000x128) origin, View.ld_unit_zero (S := S128x128) origin, View.ld_unit_zero (S := S1x128) origin]

/-- Entry `(p, q)` of what point `t` writes back is entry `(5000·t + p, q)` of `result`: the same unit, of the same row of
    the aggregated features, the same row of the weights and the same bias. -/
theorem flushed_entry (c : Dev nD) (t : Fin cfg0.N) (p : Fin 5000) (q : Fin 128) (hrow : t.val * 5000 + p.val < 100000) :
    k0_pay1 (F := Ideal) (iblk m c 0 t) (iblk m c 1 t) (iblk m c 2 t) (ix2 p q)
      = result m c (ix2 (⟨t.val * 5000 + p.val, hrow⟩ : Fin 100000) q) := by
  refine (Body.stored_entry (iblk m c 0 t) (iblk m c 1 t) (iblk m c 2 t) p q).trans ?_
  refine Eq.trans ?_ (Cert.DenseRelu.layer_apply (V m c main_v22) (m ((c : Thread nD τ).loc main_arg2))
    (m ((c : Thread nD τ).loc main_arg3)) (⟨t.val * 5000 + p.val, hrow⟩ : Fin 100000) q).symm
  refine congr (congr (congrArg Cert.DenseRelu.unit (funext fun k => ?_)) (funext fun k => ?_)) ?_
  · exact rows_read (V m c main_v22) t p k hrow
  · exact (weights_read (V m c main_v24) t k q).trans (Entry.weights_entry m c k q)
  · exact (bias_read (V m c main_v25) t q).trans (Entry.bias_entry m c q)

/-- What point `t` writes back is block `t` of `result`: rows `5000·t … 5000·t + 4999`. -/
theorem flushed_eq (c : Dev nD) (t : Fin cfg0.N) :
    (dats m 0 c).flushed 3 t = ((cfg0.win 3).blk t).view.read (Elt Ideal) (result m c) := by
  rw [flushed_stored]
  have ht := points t
  funext j
  obtain ⟨p, q, rfl⟩ : ∃ (p : Fin 5000) (q : Fin 128), j = ix2 p q := ⟨j 0, j 1, eq_ix2 j⟩
  have hrow : t.val * 5000 + p.val < 100000 := by have := p.isLt; omega
  refine (written_entry t (k0_pay1 (F := Ideal) (iblk m c 0 t) (iblk m c 1 t) (iblk m c 2 t)) p q).trans ?_
  refine Eq.trans ?_ (result_read t (result m c) p q hrow).symm
  exact flushed_entry m c t p q hrow

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v26).slice (win0_3.rect t)).set ↔ _
  rw [View.set_slice_whole, Rect.mem_set_unit]
  exact Iff.rfl

/-- Every row is in some point's block: row `r` is in the block of point `r / 5000`. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, -, -, e0, e1⟩ := index_facts t
  have tv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the run the result array is the dense layer of the aggregated features, the weights and the bias. -/
theorem final (c : Dev nD) : (dats m 0 c).arrAt 3 cfg0.N = result m c :=
  (dats m 0 c).arrAt_eq_of_cover 3 (result m c) (fun t _ => flushed_eq m c t) covered

/-- The kernel's run, read: the result array at the layer of the aggregated features (as the reference computes them), the
    weight argument and the bias argument; the arguments unchanged. -/
theorem run : θ_run defs (onTc (τ := τ) (main (F := Ideal))) ⟨m, fun _ => 0, ρ⟩ fun r => ∀ c : Dev nD,
      r.2.mem ((c : Thread nD τ).loc main_v26)
        = Cert.DenseRelu.layer (Entry.features m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (congrArg
      (fun f => Cert.DenseRelu.layer f (m ((c : Thread nD τ).loc main_arg2)) (m ((c : Thread nD τ).loc main_arg3)))
      (Entry.features_eq m c))), (h c).2⟩)
    (Value.run_blocks m ρ)

end Cert.KernelIdeal.Whole

end
-- ==== Proof.ReferenceArray.lean ====
/-
  The reference's result, read as the dense layer.

  After the host lines that aggregate the features (shared with the kernel's program and never opened here), the reference
  transposes the weights, takes the product `h · Wᵀ` of the whole `[100000, 128]` matrix, adds the bias broadcast over the
  rows and clamps at zero. Read at an entry `(p, c)`: the product is the plain sum over `k` of `h[p, k] · Wᵀ[k, c]`, the
  transposed weights at `(k, c)` are the weights at `(c, k)`, the broadcast bias is `b[c]`, and the clamp is against the
  zero word — the unit of row `p` of `h`, row `c` of `W` and `b[c]`.
-/
import proofs.«123157_j19439021981794_1_alg».proof.Proof.Gen.ReferenceIdeal.Read
import proofs.«123157_j19439021981794_1_alg».proof.Proof.DenseRelu

noncomputable section

namespace Cert.ReferenceIdeal.Whole

open Cert.ReferenceIdeal Cert.ReferenceIdeal.Read Idealize.ShloMosaic Idealize.ShloMosaic.ValueIdx

/-- The reference's last stage is the dense layer of its aggregated features (the stage `val_main_v22`), the weight
    argument and the bias argument. -/
theorem result_eq (x0 : S100000x128.Idx → EReal) (x1 : S2x640000.Idx → BitVec 32) (x2 : S128x128.Idx → EReal) (x3 : S128.Idx → EReal) :
    val_main_v28 (F := Ideal) x0 x1 x2 x3 = Cert.DenseRelu.layer (val_main_v22 (F := Ideal) x0 x1) x2 x3 := by
  funext i
  obtain ⟨p, c, rfl⟩ : ∃ (p : Fin 100000) (c : Fin 128), i = ix2 p c := ⟨i 0, i 1, eq_ix2 i⟩
  have el : ∀ k : Fin 128, lidx_main_v24 (ix2 p c) k = ix2 p k := fun k =>
    funext fun a => Fin.ext (by match a with | ⟨0, _⟩ => rfl | ⟨1, _⟩ => rfl)
  have er : ∀ k : Fin 128, idx_main_v23 (ridx_main_v24 (ix2 p c) k) = ix2 c k := fun k =>
    funext fun a => Fin.ext (by match a with | ⟨0, _⟩ => rfl | ⟨1, _⟩ => rfl)
  have eb : idx_main_v25 (idx_main_v26 (ix2 p c)) = ix1 c :=
    funext fun a => Fin.ext (by match a with | ⟨0, _⟩ => rfl)
  rw [Cert.DenseRelu.layer_apply, val_main_v28_apply, val_main_v27_apply, val_main_v24_apply, val_main_v26_apply,
    val_main_v25_apply, val_main_call0_v0_apply, val_main_call0_cst_apply]
  simp only [val_main_v23_apply, el, er, eb]
  rfl

end Cert.ReferenceIdeal.Whole

end
-- ==== Proof.lean ====
/-
  A graph convolution with mean aggregation: the kernel against its reference, on the extended reals.

  Both programs first aggregate, by the same host lines, the source rows of the node features onto the destination nodes
  and divide by the in-degree clamped below at one; call the result `h` (`[100000, 128]`). Both then compute
  `relu (h · Wᵀ + b)`. The reference does it with one product of the whole matrix; the kernel hands the transposed weights
  (rounded to bfloat16, the identity on the extended reals) and the bias row to a grid of twenty points, each of which
  multiplies 5000 rows of `h` by the weights into a zero accumulator, adds the bias row and clamps at zero.

  An output row of the layer depends on the same row of `h` only, and the twenty row blocks tile the 100000 rows, so the
  kernel's result array is the layer of the whole `h` (Proof/BlockValue.lean: an entry of the stored block;
  Proof/KernelArray.lean: the blocks read where the output block says, the cover, the run). The reference's last stage,
  read at an entry, is the same unit of the same row of `h`, the same row of `W` and the same `b[c]`
  (Proof/ReferenceArray.lean). `h` is one unopened function of the node features and the edge list on both sides
  (Proof/RegionEntry.lean). Entry by entry the two sides are the same plain sum over the 128 input features, in the same
  order, plus the same bias, clamped at the same zero word: no algebraic law is needed, so the inputs' finiteness is never
  used. The idealization rewrote no operation, so `preserves` is `True`; the three frames are the generated ones (the
  reference's is its generated run with the result dropped).
-/
import proofs.«123157_j19439021981794_1_alg».proof.Defs
import proofs.«123157_j19439021981794_1_alg».proof.Proof.Gen.Kernel
import proofs.«123157_j19439021981794_1_alg».proof.Proof.Gen.Kernel.Skeleton
import proofs.«123157_j19439021981794_1_alg».proof.Proof.Gen.Kernel.Launch
import proofs.«123157_j19439021981794_1_alg».proof.Proof.Gen.Kernel.Points
import proofs.«123157_j19439021981794_1_alg».proof.Proof.Gen.Kernel.Frame
import proofs.«123157_j19439021981794_1_alg».proof.Proof.Gen.KernelIdeal
import proofs.«123157_j19439021981794_1_alg».proof.Proof.Gen.KernelIdeal.Skeleton
import proofs.«123157_j19439021981794_1_alg».proof.Proof.Gen.KernelIdeal.Launch
import proofs.«123157_j19439021981794_1_alg».proof.Proof.Gen.KernelIdeal.Points
import proofs.«123157_j19439021981794_1_alg».proof.Proof.Gen.KernelIdeal.Frame
import proofs.«123157_j19439021981794_1_alg».proof.Proof.Gen.ReferenceIdeal
import proofs.«123157_j19439021981794_1_alg».proof.Proof.Gen.Pre_finite_inputs
import proofs.«123157_j19439021981794_1_alg».proof.Proof.Gen.KernelIdeal.Value
import proofs.«123157_j19439021981794_1_alg».proof.Proof.Gen.ReferenceIdeal.Run
import proofs.«123157_j19439021981794_1_alg».proof.Proof.Gen.ReferenceIdeal.Read
import proofs.«123157_j19439021981794_1_alg».proof.Proof.KernelArray
import proofs.«123157_j19439021981794_1_alg».proof.Proof.ReferenceArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host lines only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the dense layer of the aggregated features, the
    weights and the bias in their result arrays. -/
theorem algebraic : Cert.algebraic_KernelIdeal_ReferenceIdeal := by
  intro m ρ m' ρ' _ hagree
  refine ⟨fun c => Cert.DenseRelu.layer (Cert.KernelIdeal.Entry.features m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Whole.result_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
